-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S3200000x1 : Shape := ⟨2, ![3200000, 1]⟩
abbrev S3200000 : Shape := ⟨1, ![3200000]⟩
abbrev S257x256 : Shape := ⟨2, ![257, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000x1 : S_.BroadcastsInDim S3200000x1 (![] : Fin 0 → Fin S3200000x1.rank)
  reducesTo_S3200000x1_S_d0_1 : S3200000x1.ReducesTo [0, 1] S_
  bcast_S_S257x256 : S_.BroadcastsInDim S257x256 (![] : Fin 0 → Fin S257x256.rank)
  reducesTo_S257x256_S_d0_1 : S257x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S100000x256 .f32) (main_arg1 : FVec F S3200000x1 .f32) (main_arg2 : IVec S3200000 32) (main_arg3 : FVec F S257x256 .f32) (main_arg4 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000x1 .f32 := Host.absf main_arg1
  let main_cst_0 : FVec F S_ .f32 := constant S_ .f32 0x7F800000#32
  let main_v5 : FVec F S3200000x1 .f32 := broadcastInDim S3200000x1 ![] bcast_S_S3200000x1 main_cst_0
  let main_v6 : IVec S3200000x1 1 := cmpf .olt main_v4 main_v5
  let main_c_1 : IVec S_ 1 := constantI S_ 1 1#1
  let main_v7 : IVec S_ 1 := (fun x v => Host.reduce IntOp.andi x v reducesTo_S3200000x1_S_d0_1 h_S_) main_v6 main_c_1
  let main_v8 : IVec S_ 1 := andi main_v3 main_v7
  let main_v9 : FVec F S257x256 .f32 := Host.absf main_arg3
  let main_cst_2 : FVec F S_ .f32 := constant S_ .f32 0x7F800000#32
  let main_v10 : FVec F S257x256 .f32 := broadcastInDim S257x256 ![] bcast_S_S257x256 main_cst_2
  let main_v11 : IVec S257x256 1 := cmpf .olt main_v9 main_v10
  let main_c_3 : IVec S_ 1 := constantI S_ 1 1#1
  let main_v12 : IVec S_ 1 := (fun x v => Host.reduce IntOp.andi x v reducesTo_S257x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S100000x256 : Shape := ⟨2, ![100000, 256]⟩
abbrev S3200000x1 : Shape := ⟨2, ![3200000, 1]⟩
abbrev S3200000 : Shape := ⟨1, ![3200000]⟩
abbrev S257x256 : Shape := ⟨2, ![257, 256]⟩
abbrev S256 : Shape := ⟨1, ![256]⟩
abbrev S_ : Shape := ⟨0, ![]⟩
abbrev S100000x1 : Shape := ⟨2, ![100000, 1]⟩
abbrev S256x256 : Shape := ⟨2, ![256, 256]⟩
abbrev S1x256 : Shape := ⟨2, ![1, 256]⟩
abbrev S4000x256 : Shape := ⟨2, ![4000, 256]⟩
abbrev S4000x1 : Shape := ⟨2, ![4000, 1]⟩

abbrev nBuf : Space → Nat
  | .hbm => 13
  | .vmem => 9
  | .smem => 0
  | _ => 0

abbrev bufTy : (tb : Table) → Fin (tcTables nBuf tb) → BufTy
  | .hbm, ⟨0, _⟩ => ⟨S100000x256, .f32⟩
  | .hbm, ⟨1, _⟩ => ⟨S3200000x1, .f32⟩
  | .hbm, ⟨2, _⟩ => ⟨S3200000, .i32⟩
  | .hbm, ⟨3, _⟩ => ⟨S257x256, .f32⟩
  | .hbm, ⟨4, _⟩ => ⟨S256, .f32⟩
  | .hbm, ⟨5, _⟩ => ⟨S_, .f32⟩
  | .hbm, ⟨6, _⟩ => ⟨S100000x1, .f32⟩
  | .hbm, ⟨7, _⟩ => ⟨S3200000x1, .i32⟩
  | .hbm, ⟨8, _⟩ => ⟨S100000x1, .f32⟩
  | .hbm, ⟨9, _⟩ => ⟨S256x256, .f32⟩
  | .hbm, ⟨10, _⟩ => ⟨S1x256, .f32⟩
  | .hbm, ⟨11, _⟩ => ⟨S1x256, .f32⟩
  | .hbm, ⟨12, _⟩ => ⟨S100000x256, .f32⟩
  | .local _ .vmem, ⟨0, _⟩ => ⟨S4000x256, .f32⟩
  | .local _ .vmem, ⟨1, _⟩ => ⟨S4000x256, .f32⟩
  | .local _ .vmem, ⟨2, _⟩ => ⟨S4000x1, .f32⟩
  | .local _ .vmem, ⟨3, _⟩ => ⟨S4000x1, .f32⟩
  | .local _ .vmem, ⟨4, _⟩ => ⟨S256x256, .f32⟩
  | .local _ .vmem, ⟨5, _⟩ => ⟨S1x256, .f32⟩
  | .local _ .vmem, ⟨6, _⟩ => ⟨S1x256, .f32⟩
  | .local _ .vmem, ⟨7, _⟩ => ⟨S4000x256, .f32⟩
  | .local _ .vmem, ⟨8, _⟩ => ⟨S4000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S100000x1 : S_.BroadcastsInDim S100000x1 (![] : Fin 0 → Fin S100000x1.rank)
  bcast_S3200000_S3200000x1_0 : S3200000.BroadcastsInDim S3200000x1 (![0] : Fin 1 → Fin S3200000x1.rank)
  slices_S257x256_S256x256_0_0 : S257x256.Slices ![0, 0] S256x256
  slices_S257x256_S1x256_256_0 : S257x256.Slices ![256, 0] S1x256
  shapeCasts_S256_S1x256 : S256.ShapeCasts S1x256
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S4000x1_S4000x256 : S4000x1.Broadcasts S4000x256
  broadcasts_S1x256_S4000x256 : S1x256.Broadcasts S4000x256
  scatter_S100000x1_S3200000x1_S3200000x1_1_0_0_1_wf : ScatterDims.WF S100000x1 S3200000x1 S3200000x1 [1] [0] [0] 1
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S100000x256.size a
  hwx0_5 : ∀ i : grid0.Coords, EltTy.bits .f32 = 32 ∨ (Rect.block (s := S100000x256) S4000x256.size (cc0_transform_5 i) (hinb0_5 i)).WholeWords (EltTy.packing .f32)

variable [Facts₀]

def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x256 : Shape := ⟨2, ![100000, 256]⟩
abbrev S3200000x1 : Shape := ⟨2, ![3200000, 1]⟩
abbrev S3200000 : Shape := ⟨1, ![3200000]⟩
abbrev S257x256 : Shape := ⟨2, ![257, 256]⟩
abbrev S256 : Shape := ⟨1, ![256]⟩
abbrev S_ : Shape := ⟨0, ![]⟩
abbrev S100000x1 : Shape := ⟨2, ![100000, 1]⟩
abbrev S100000x257 : Shape := ⟨2, ![100000, 257]⟩
abbrev S1x256 : Shape := ⟨2, ![1, 256]⟩

abbrev nBuf : Space → Nat
  | .hbm => 14
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S3200000x1, .f32⟩
  | .hbm, ⟨2, _⟩ => ⟨S3200000, .i32⟩
  | .hbm, ⟨3, _⟩ => ⟨S257x256, .f32⟩
  | .hbm, ⟨4, _⟩ => ⟨S256, .f32⟩
  | .hbm, ⟨5, _⟩ => ⟨S_, .f32⟩
  | .hbm, ⟨6, _⟩ => ⟨S100000x1, .f32⟩
  | .hbm, ⟨7, _⟩ => ⟨S3200000x1, .i32⟩
  | .hbm, ⟨8, _⟩ => ⟨S100000x1, .f32⟩
  | .hbm, ⟨9, _⟩ => ⟨S100000x257, .f32⟩
  | .hbm, ⟨10, _⟩ => ⟨S100000x256, .f32⟩
  | .hbm, ⟨11, _⟩ => ⟨S1x256, .f32⟩
  | .hbm, ⟨12, _⟩ => ⟨S100000x256, .f32⟩
  | .hbm, ⟨13, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S100000x1 : S_.BroadcastsInDim S100000x1 (![] : Fin 0 → Fin S100000x1.rank)
  bcast_S3200000_S3200000x1_0 : S3200000.BroadcastsInDim S3200000x1 (![0] : Fin 1 → Fin S3200000x1.rank)
  concatenates_S100000x256_S100000x1_S100000x257_d1 : Shape.Concatenates [S100000x256, S100000x1] S100000x257 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  scatter_S100000x1_S3200000x1_S3200000x1_1_0_0_1_wf : ScatterDims.WF S100000x1 S3200000x1 S3200000x1 [1] [0] [0] 1
  dot_S100000x257_S257x256_S100000x256_1_0_0_1_n_n_wf : DotDims.WF S100000x257 S257x256 S100000x256 [1] [0] [0] [1] [] []

variable [Facts₀]

def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x257_S257x256_S100000x256_1_0_0_1_n_n : DotDims S100000x257 S257x256 S100000x256 where
  lhsContracting := [1]
  rhsContracting := [0]
  lhsNonContracting := [0]
  rhsNonContracting := [1]
  lhsBatch := []
  rhsBatch := []
  wf := dot_S100000x257_S257x256_S100000x256_1_0_0_1_n_n_wf

class Facts : Prop extends Facts₀ where

variable [Facts]
-- ==== Proof.RegionEntry.lean ====
/-
  What the kernel's region finds when it is entered, and where each window's block sits.

  Before the launch the host computes four arrays: the column of extra features (each edge's feature added into
  the row its destination index names, starting from zero), the first 256 rows of W, the last row of W, and the
  bias as a row.  The grid has 25 points; the tile of x, the tile of the column and the result's tile are block t
  along the rows, while the matrix, the last row and the bias row are the same block at every point.
-/
import proofs.«174963_j76192719831671_2_alg».proof.Proof.Gen.KernelIdeal.Value
import Idealize.ShloMosaic.Lib.Pipeline.Value
import Idealize.ShloMosaic.Lib.StableHlo.Run
import Idealize.ShloMosaic.Lib.ValueLayout

noncomputable section

open scoped BigOperators

namespace Cert.KernelIdeal.Entry

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The column of extra features: each edge's feature added into the row its destination index names, starting
    from zero. -/
def agg (he : (⟨S3200000x1, .f32⟩ : BufTy).Contents (Elt Ideal)) (dst : (⟨S3200000, .i32⟩ : BufTy).Contents (Elt Ideal)) :
    (⟨S100000x1, .f32⟩ : BufTy).Contents (Elt Ideal) :=
  Host.scatterAdd scatter_S100000x1_S3200000x1_S3200000x1_1_0_0_1
    (broadcastInDim S100000x1 ![] bcast_S_S100000x1 (constant (F := Ideal) S_ .f32 0x00000000#32))
    (broadcastInDim S3200000x1 ![0] bcast_S3200000_S3200000x1_0 dst) he

/-- The region finds the column of extra features in the second window's array. -/
theorem V_v2 (c : Dev nD) :
    (V m c main_v2 : (⟨S100000x1, .f32⟩ : BufTy).Contents (Elt Ideal))
      = agg (m ((c : Thread nD τ).loc main_arg1)) (m ((c : Thread nD τ).loc main_arg2)) := by
  dsimp only [Gen.V, Gen.hostOps0]
  after_results <;> rfl

/-- The third window's array is the first 256 rows of W. -/
theorem V_v3 (c : Dev nD) :
    (V m c main_v3 : (⟨S256x256, .f32⟩ : BufTy).Contents (Elt Ideal))
      = extractStridedSlice S256x256 ![0, 0] (m ((c : Thread nD τ).loc main_arg3)) slices_S257x256_S256x256_0_0 := by
  dsimp only [Gen.V, Gen.hostOps0]
  after_results <;> rfl

/-- The fourth window's array is the last row of W. -/
theorem V_v4 (c : Dev nD) :
    (V m c main_v4 : (⟨S1x256, .f32⟩ : BufTy).Contents (Elt Ideal))
      = extractStridedSlice S1x256 ![256, 0] (m ((c : Thread nD τ).loc main_arg3)) slices_S257x256_S1x256_256_0 := by
  dsimp only [Gen.V, Gen.hostOps0]
  after_results <;> rfl

/-- The fifth window's array is the bias as a row. -/
theorem V_v5 (c : Dev nD) :
    (V m c main_v5 : (⟨S1x256, .f32⟩ : BufTy).Contents (Elt Ideal))
      = shapeCast S1x256 (m ((c : Thread nD τ).loc main_arg4)) shapeCasts_S256_S1x256 := by
  dsimp only [Gen.V, Gen.hostOps0]
  after_results <;> rfl

/-! ## Where each window's block sits -/

/-- The printed index maps over the 25 grid points: the tile of x, the tile of the column and the result's tile are
    block t along the rows; the matrix, the last row and the bias row are always block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

end Cert.KernelIdeal.Entry

end
-- ==== Proof.TileReads.lean ====
/-
  Each window's block at a grid point, read at an entry, is an entry of an argument array.

  Point t's tile of x is rows 4000·t … 4000·t + 3999 of x, and its tile of the column of extra features the same
  rows of the column.  The matrix every point holds is the first 256 rows of W, the row it holds the last row of
  W, and the bias row the bias.  A block's coordinate in its array is always block index × block extent plus the
  coordinate inside the block.
-/
import proofs.«174963_j76192719831671_2_alg».proof.Proof.RegionEntry

noncomputable section

namespace Cert.KernelIdeal.Entry

open Cert.KernelIdeal Cert.KernelIdeal.Gen Cert.KernelIdeal.Value Idealize.ShloMosaic Idealize.ShloMosaic.TcCoe Idealize.SL.Sem
open Idealize.ShloMosaic.ValueIdx

variable (m : (ℓ : Loc nD τ sig) → Buf (Elt Ideal) ℓ)

/-! ## What the region finds in each window's array -/

theorem V_w1 (c : Dev nD) :
    V m c (Pipeline.arrRef spec0 1) = agg (m ((c : Thread nD τ).loc main_arg1)) (m ((c : Thread nD τ).loc main_arg2)) :=
  V_v2 m c

theorem V_w2 (c : Dev nD) :
    V m c (Pipeline.arrRef spec0 2)
      = extractStridedSlice S256x256 ![0, 0] (m ((c : Thread nD τ).loc main_arg3)) slices_S257x256_S256x256_0_0 :=
  V_v3 m c

theorem V_w3 (c : Dev nD) :
    V m c (Pipeline.arrRef spec0 3)
      = extractStridedSlice S1x256 ![256, 0] (m ((c : Thread nD τ).loc main_arg3)) slices_S257x256_S1x256_256_0 :=
  V_v4 m c

theorem V_w4 (c : Dev nD) :
    V m c (Pipeline.arrRef spec0 4) = shapeCast S1x256 (m ((c : Thread nD τ).loc main_arg4)) shapeCasts_S256_S1x256 :=
  V_v5 m c

/-! ## A block read at an entry is the array at the block's coordinates -/

theorem blk1_read (t : Fin cfg0.N) (A : (⟨S100000x1, .f32⟩ : BufTy).Contents (Elt Ideal)) (p : Fin 4000) :
    ((cfg0.win 1).blk t).view.read (Elt Ideal) A (ix2 p (0 : Fin 1))
      = A (((cfg0.win 1).blk t).view.emb (ix2 p (0 : Fin 1))) := rfl

theorem blk2_read (t : Fin cfg0.N) (A : (⟨S256x256, .f32⟩ : BufTy).Contents (Elt Ideal)) (k q : Fin 256) :
    ((cfg0.win 2).blk t).view.read (Elt Ideal) A (ix2 k q) = A (((cfg0.win 2).blk t).view.emb (ix2 k q)) := rfl

theorem blk3_read (t : Fin cfg0.N) (A : (⟨S1x256, .f32⟩ : BufTy).Contents (Elt Ideal)) (q : Fin 256) :
    ((cfg0.win 3).blk t).view.read (Elt Ideal) A (ix2 (0 : Fin 1) q)
      = A (((cfg0.win 3).blk t).view.emb (ix2 (0 : Fin 1) q)) := rfl

theorem blk4_read (t : Fin cfg0.N) (A : (⟨S1x256, .f32⟩ : BufTy).Contents (Elt Ideal)) (q : Fin 256) :
    ((cfg0.win 4).blk t).view.read (Elt Ideal) A (ix2 (0 : Fin 1) q)
      = A (((cfg0.win 4).blk t).view.emb (ix2 (0 : Fin 1) q)) := rfl

/-! ## The blocks' coordinates -/

/-- Row p of point t's block of the column is row 4000·t + p. -/
theorem blk1_emb (t : Fin cfg0.N) (p : Fin 4000) (r : Fin 100000) (hr : r.val = 4000 * t.val + p.val) :
    ((cfg0.win 1).blk t).view.emb (ix2 p (0 : Fin 1)) = (ix2 r (0 : Fin 1) : S100000x1.Idx) := by
  obtain ⟨-, -, e10, e11, -⟩ := idx_facts t
  funext a
  apply Fin.ext
  match a with
  | ⟨0, _⟩ => show win0_1.index t (0 : Fin 2) * 4000 + 1 * p.val = r.val; rw [e10, hr]; omega
  | ⟨1, _⟩ => show win0_1.index t (1 : Fin 2) * 1 + 1 * 0 = 0; rw [e11]

/-- The held matrix's block is the whole 256 × 256 array. -/
theorem blk2_emb (t : Fin cfg0.N) (k q : Fin 256) :
    ((cfg0.win 2).blk t).view.emb (ix2 k q) = (ix2 k q : S256x256.Idx) := by
  obtain ⟨-, -, -, -, e20, e21, -⟩ := idx_facts t
  funext a
  apply Fin.ext
  match a with
  | ⟨0, _⟩ => show win0_2.index t (0 : Fin 2) * 256 + 1 * k.val = k.val; rw [e20]; omega
  | ⟨1, _⟩ => show win0_2.index t (1 : Fin 2) * 256 + 1 * q.val = q.val; rw [e21]; omega

/-- The held last row's block is the whole 1 × 256 array. -/
theorem blk3_emb (t : Fin cfg0.N) (q : Fin 256) :
    ((cfg0.win 3).blk t).view.emb (ix2 (0 : Fin 1) q) = (ix2 (0 : Fin 1) q : S1x256.Idx) := by
  obtain ⟨-, -, -, -, -, -, e30, e31, -⟩ := idx_facts t
  funext a
  apply Fin.ext
  match a with
  | ⟨0, _⟩ => show win0_3.index t (0 : Fin 2) * 1 + 1 * 0 = 0; rw [e30]
  | ⟨1, _⟩ => show win0_3.index t (1 : Fin 2) * 256 + 1 * q.val = q.val; rw [e31]; omega

/-- The bias row's block is the whole 1 × 256 array. -/
theorem blk4_emb (t : Fin cfg0.N) (q : Fin 256) :
    ((cfg0.win 4).blk t).view.emb (ix2 (0 : Fin 1) q) = (ix2 (0 : Fin 1) q : S1x256.Idx) := by
  obtain ⟨-, -, -, -, -, -, -, -, e40, e41, -⟩ := idx_facts t
  funext a
  apply Fin.ext
  match a with
  | ⟨0, _⟩ => show win0_4.index t (0 : Fin 2) * 1 + 1 * 0 = 0; rw [e40]
  | ⟨1, _⟩ => show win0_4.index t (1 : Fin 2) * 256 + 1 * q.val = q.val; rw [e41]; omega

/-- Entry (p, q) of point t's block of the result is entry (4000·t + p, q) of the result. -/
theorem blk5_emb (t : Fin cfg0.N) (p : Fin 4000) (q : Fin 256) (r : Fin 100000) (hr : r.val = 4000 * t.val + p.val) :
    ((cfg0.win 5).blk t).view.emb (ix2 p q) = (ix2 r q : S100000x256.Idx) := by
  obtain ⟨-, -, -, -, -, -, -, -, -, -, e50, e51⟩ := idx_facts t
  funext a
  apply Fin.ext
  match a with
  | ⟨0, _⟩ => show win0_5.index t (0 : Fin 2) * 4000 + 1 * p.val = r.val; rw [e50, hr]; omega
  | ⟨1, _⟩ => show win0_5.index t (1 : Fin 2) * 256 + 1 * q.val = q.val; rw [e51]; omega

/-! ## Each block at an entry, as an entry of an argument array -/

/-- Row p of point t's tile of x is row 4000·t + p of x. -/
theorem tile_x (c : Dev nD) (t : Fin cfg0.N) (p : Fin 4000) (k : Fin 256) (r : Fin 100000)
    (hr : r.val = 4000 * t.val + p.val) :
    (iblk m c 0 t : Vec Ideal S4000x256 .f32) (ix2 p k)
      = (m ((c : Thread nD τ).loc main_arg0) : FVec Ideal S100000x256 .f32) (ix2 r k) := by
  obtain ⟨e00, e01, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 2) * 4000 + 1 * p.val = r.val; rw [e00, hr]; omega
  | ⟨1, _⟩ => show win0_0.index t (1 : Fin 2) * 256 + 1 * k.val = k.val; rw [e01]; omega

/-- Row p of point t's tile of the column of extra features is row 4000·t + p of the column. -/
theorem tile_a (c : Dev nD) (t : Fin cfg0.N) (p : Fin 4000) (r : Fin 100000) (hr : r.val = 4000 * t.val + p.val) :
    (iblk m c 1 t : Vec Ideal S4000x1 .f32) (ix2 p (0 : Fin 1))
      = agg (m ((c : Thread nD τ).loc main_arg1)) (m ((c : Thread nD τ).loc main_arg2)) (ix2 r (0 : Fin 1)) := by
  unfold iblk
  rw [V_w1, blk1_read, blk1_emb t p r hr]

/-- The matrix every point holds is the first 256 rows of W. -/
theorem tile_w (c : Dev nD) (t : Fin cfg0.N) (k q : Fin 256) :
    (iblk m c 2 t : Vec Ideal S256x256 .f32) (ix2 k q)
      = (m ((c : Thread nD τ).loc main_arg3) : FVec Ideal S257x256 .f32) (ix2 k.castSucc q) := by
  unfold iblk
  rw [V_w2, blk2_read, blk2_emb]
  exact slice2_axis0_apply 0 _ _ k q k.castSucc (Nat.zero_add k.val).symm

/-- The row every point holds is the last row of W. -/
theorem tile_last (c : Dev nD) (t : Fin cfg0.N) (q : Fin 256) :
    (iblk m c 3 t : Vec Ideal S1x256 .f32) (ix2 (0 : Fin 1) q)
      = (m ((c : Thread nD τ).loc main_arg3) : FVec Ideal S257x256 .f32) (ix2 (Fin.last 256) q) := by
  unfold iblk
  rw [V_w3, blk3_read, blk3_emb]
  exact slice2_axis0_apply 256 _ _ (0 : Fin 1) q (Fin.last 256) rfl

/-- The bias row every point holds is the bias. -/
theorem tile_b (c : Dev nD) (t : Fin cfg0.N) (q : Fin 256) :
    (iblk m c 4 t : Vec Ideal S1x256 .f32) (ix2 (0 : Fin 1) q)
      = (m ((c : Thread nD τ).loc main_arg4) : FVec Ideal S256 .f32) (ix1 q) := by
  unfold iblk
  rw [V_w4, blk4_read, blk4_emb]
  exact shapeCast_a_1a_apply _ _ (0 : Fin 1) q

end Cert.KernelIdeal.Entry

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.LibColumnBroadcast.lean ====
/-
  One column broadcast over many.

  An `a × 1` column broadcast to `a × b` repeats, along each row, that row's one entry: the result at `(p, c)` is
  the column at `(p, 0)`, whatever the column coordinate `c`. (The companion of the row form, where a `1 × b` row
  is repeated down the rows.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.TileEntry.lean ====
/-
  What the kernel body stores, read at one entry of its 4000 × 256 tile.

  The body multiplies its 4000 × 256 tile of x by the 256 × 256 matrix it holds (the product accumulated into zero),
  adds the tile's column of extra features spread along each row times the one held row spread down the rows,
  and adds the bias row spread down the rows.  Over the extended reals a change of float format is the identity,
  so entry (p, q) of what it stores is
      (∑_{k < 256} x(p, k) · w(k, q) + a(p) · r(q)) + b(q).
-/
import proofs.«174963_j76192719831671_2_alg».proof.Proof.Gen.KernelIdeal.Skeleton
import proofs.«174963_j76192719831671_2_alg».proof.Proof.LibDenseEntry
import proofs.«174963_j76192719831671_2_alg».proof.Proof.LibColumnBroadcast
import Idealize.ShloMosaic.Lib.ValueLayout

noncomputable section

open scoped BigOperators

namespace Cert.KernelIdeal.Tile

open Cert.KernelIdeal Cert.KernelIdeal.Gen Idealize.ShloMosaic Idealize.ShloMosaic.ValueIdx

/-- Entry (p, q) of the stored tile, from the five loaded blocks: the tile of x, the held matrix, the tile's column
    of extra features, the held last row and the bias row. -/
theorem stored_apply (x : Vec Ideal S4000x256 .f32) (w : Vec Ideal S256x256 .f32) (a : Vec Ideal S4000x1 .f32)
    (r b : Vec Ideal S1x256 .f32) (p : Fin 4000) (q : Fin 256) :
    k0_pay1 (F := Ideal) x w a r b (ix2 p q)
      = ((∑ k : Fin 256, x (ix2 p k) * w (ix2 k q)) + a (ix2 p (0 : Fin 1)) * r (ix2 (0 : Fin 1) q))
          + b (ix2 (0 : Fin 1) q) := by
  unfold k0_pay1
  rw [addf_apply, addf_apply, mulf_apply]
  simp only [shapeCast_self]
  rw [LibColumnBroadcast.broadcastTo_a1_ab_apply, broadcastTo_1b_ab_apply, broadcastTo_1b_ab_apply]
  refine congrArg (fun z => z + a (ix2 p (0 : Fin 1)) * r (ix2 (0 : Fin 1) q) + b (ix2 (0 : Fin 1) q)) ?_
  exact LibDenseEntry.matmul_plain_zero_apply dot_S4000x256_S256x256_S4000x256_1_0_0_1_n_n rfl rfl rfl rfl rfl rfl none
    _ _ p q

end Cert.KernelIdeal.Tile

end
-- ==== Proof.RankOneLayer.lean ====
/-
  A linear layer over 257 input features whose last feature is one number per row.

  Row p of the input is the 256 entries x(p, ·) followed by the single entry a(p).  The layer multiplies by a
  257 × 256 matrix W and adds a bias b, so its entry (p, q) is
      ∑_{k < 257} h(p, k) · W(k, q) + b(q),        h(p, k) = x(p, k) for k < 256,   h(p, 256) = a(p).
  Splitting off the last term of the inner product,
      ∑_{k < 257} h(p, k) · W(k, q)  =  ∑_{k < 256} x(p, k) · W(k, q)  +  a(p) · W(256, q):
  a matrix product over the first 256 features plus a rank-one correction.  The split only regroups a finite sum,
  which needs addition to be commutative and associative and nothing else, so it holds over the extended reals
  with infinite entries allowed.
-/
import Idealize.ShloMosaic.PureOps.Ideal
import Idealize.ShloMosaic.Lib.ValueIdx

noncomputable section

open scoped BigOperators

namespace Cert.RankOneLayer

open Idealize.ShloMosaic Idealize.ShloMosaic.ValueIdx

/-- Entry (p, q) of the layer, in the split form: the inner product of row p of x with the first 256 rows of
    column q of W, plus the row's extra feature times the last row of W, plus the bias. -/
def entry (x : FVec Ideal ⟨2, ![100000, 256]⟩ .f32) (a : FVec Ideal ⟨2, ![100000, 1]⟩ .f32)
    (W : FVec Ideal ⟨2, ![257, 256]⟩ .f32) (b : FVec Ideal ⟨1, ![256]⟩ .f32) (p : Fin 100000) (q : Fin 256) : EReal :=
  ((∑ k : Fin 256, x (ix2 p k) * W (ix2 k.castSucc q)) + a (ix2 p (0 : Fin 1)) * W (ix2 (Fin.last 256) q))
    + b (ix1 q)

/-- The layer's whole result: the split-form entry at every index. -/
def layer (x : FVec Ideal ⟨2, ![100000, 256]⟩ .f32) (a : FVec Ideal ⟨2, ![100000, 1]⟩ .f32)
    (W : FVec Ideal ⟨2, ![257, 256]⟩ .f32) (b : FVec Ideal ⟨1, ![256]⟩ .f32) : FVec Ideal ⟨2, ![100000, 256]⟩ .f32 :=
  fun i => entry x a W b (i 0) (i 1)

theorem layer_apply (x : FVec Ideal ⟨2, ![100000, 256]⟩ .f32) (a : FVec Ideal ⟨2, ![100000, 1]⟩ .f32)
    (W : FVec Ideal ⟨2, ![257, 256]⟩ .f32) (b : FVec Ideal ⟨1, ![256]⟩ .f32) (p : Fin 100000) (q : Fin 256) :
    layer x a W b (ix2 p q) = entry x a W b p q := rfl

/-- An inner product over 257 features is the inner product over the first 256 plus the last feature's term. -/
theorem inner_split (h w : Fin 257 → EReal) :
    ∑ k : Fin 257, h k * w k = (∑ k : Fin 256, h k.castSucc * w k.castSucc) + h (Fin.last 256) * w (Fin.last 256) :=
  Fin.sum_univ_castSucc (n := 256) fun k => h k * w k

end Cert.RankOneLayer

end
-- ==== Proof.KernelLayer.lean ====
/-
  The kernel's result array is the layer.

  Point t of the grid stores, at entry (p, q) of its tile, the split-form entry of the layer at row 4000·t + p:
  its tile of x is those rows of x, its tile of the column those rows of the column, and the matrix, row and bias
  row it holds are the first 256 rows of W, the last row of W and the bias.  It writes its tile back to rows
  4000·t … 4000·t + 3999 of the result, and the 25 tiles cover all 100000 rows, so after the run the result array
  is the layer at every index.
-/
import proofs.«174963_j76192719831671_2_alg».proof.Proof.TileReads
import proofs.«174963_j76192719831671_2_alg».proof.Proof.TileEntry
import proofs.«174963_j76192719831671_2_alg».proof.Proof.RankOneLayer

noncomputable section

open scoped BigOperators

namespace Cert.KernelIdeal.Whole

open Cert.KernelIdeal Cert.KernelIdeal.Gen Cert.KernelIdeal.Value Cert.KernelIdeal.Entry
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer of the argument arrays as launched. -/
def result (c : Dev nD) : (⟨S100000x256, .f32⟩ : BufTy).Contents (Elt Ideal) :=
  RankOneLayer.layer (m ((c : Thread nD τ).loc main_arg0))
    (agg (m ((c : Thread nD τ).loc main_arg1)) (m ((c : Thread nD τ).loc main_arg2)))
    (m ((c : Thread nD τ).loc main_arg3)) (m ((c : Thread nD τ).loc main_arg4))

/-- What point t stores at entry (p, q) of its tile is the layer's entry at row 4000·t + p. -/
theorem stored_entry (c : Dev nD) (t : Fin cfg0.N) (p : Fin 4000) (q : Fin 256) (r : Fin 100000)
    (hr : r.val = 4000 * t.val + p.val) :
    k0_pay1 (F := Ideal) (iblk m c 0 t) (iblk m c 2 t) (iblk m c 1 t) (iblk m c 3 t) (iblk m c 4 t) (ix2 p q)
      = result m c (ix2 r q) := by
  refine (Tile.stored_apply (iblk m c 0 t) (iblk m c 2 t) (iblk m c 1 t) (iblk m c 3 t) (iblk m c 4 t) p q).trans ?_
  rw [tile_a m c t p r hr, tile_last m c t q, tile_b m c t q]
  simp only [tile_x m c t p _ r hr, tile_w m c t]
  rfl

/-- The result window is never cut: what a point writes back is what its staging buffer holds. -/
theorem cut5 (t : Fin cfg0.N) (X : S4000x256.Idx → Elt Ideal .f32) (p : Fin 4000) (q : Fin 256) :
    (cfg0.win 5).cut (grid0.coords t) X (ix2 p q) = X (ix2 p q) := rfl

/-- A block of the result array read at an entry is the array at the block's coordinates. -/
theorem blk5_read (t : Fin cfg0.N) (G : (⟨S100000x256, .f32⟩ : BufTy).Contents (Elt Ideal)) (p : Fin 4000) (q : Fin 256) :
    ((cfg0.win 5).blk t).view.read (Elt Ideal) G (ix2 p q) = G (((cfg0.win 5).blk t).view.emb (ix2 p q)) := rfl

/-- Point t writes back rows 4000·t … 4000·t + 3999 of the layer. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S4000x256) hz, View.ld_unit_zero (S := S256x256) hz,
    View.ld_unit_zero (S := S4000x1) hz, View.ld_unit_zero (S := S1x256) hz]
  funext j
  obtain ⟨p, q, rfl⟩ : ∃ (p : Fin 4000) (q : Fin 256), j = ix2 p q := ⟨j 0, j 1, eq_ix2 (n0 := 4000) (n1 := 256) j⟩
  have hN : cfg0.N = 25 := N_0
  have ht : t.val < 25 := hN ▸ t.isLt
  obtain ⟨r, hr⟩ : ∃ r : Fin 100000, r.val = 4000 * t.val + p.val := ⟨⟨4000 * t.val + p.val, by omega⟩, rfl⟩
  rw [cut5, blk5_read, blk5_emb t p q r hr]
  exact stored_entry m c t p q r hr

/-- An index of the result is in point t's block iff each coordinate is in the block's range on its axis. -/
theorem mem_blk (t : Fin cfg0.N) (i : S100000x256.Idx) :
    i ∈ ((cfg0.win 5).blk t).view.set ↔ ∀ a : Fin 2, win0_5.index t a * S4000x256.size a ≤ (i a).val
      ∧ (i a).val < win0_5.index t a * S4000x256.size a + S4000x256.size a := by
  show i ∈ ((View.whole main_v6).slice (win0_5.rect t)).set ↔ _
  rw [View.set_slice_whole, Rect.mem_set_unit]
  exact Iff.rfl

/-- Every index of the result is in some point's block: row r is in the block of point r / 4000. -/
theorem cover (i : S100000x256.Idx) :
    ∃ t : Fin cfg0.N, (cfg0.win 5).flush t = true ∧ i ∈ ((cfg0.win 5).blk t).view.set := by
  have hN : cfg0.N = 25 := N_0
  have h0 : (i 0).val < 100000 := idx2_lt0 i
  have h1 : (i 1).val < 256 := idx2_lt1 i
  obtain ⟨t, ht⟩ : ∃ t : Fin cfg0.N, t.val = (i 0).val / 4000 := ⟨⟨(i 0).val / 4000, by rw [hN]; omega⟩, rfl⟩
  obtain ⟨-, -, -, -, -, -, -, -, -, -, e50, e51⟩ := idx_facts t
  refine ⟨t, flush0_5 t, ?_⟩
  rw [mem_blk]
  intro a
  match a with
  | ⟨0, _⟩ =>
    show win0_5.index t (0 : Fin 2) * 4000 ≤ (i 0).val ∧ (i 0).val < win0_5.index t (0 : Fin 2) * 4000 + 4000
    rw [e50, ht]; omega
  | ⟨1, _⟩ =>
    show win0_5.index t (1 : Fin 2) * 256 ≤ (i 1).val ∧ (i 1).val < win0_5.index t (1 : Fin 2) * 256 + 256
    rw [e51]; omega

/-- After the run the result array is the layer. -/
theorem final (c : Dev nD) : (dats m 0 c).arrAt 5 cfg0.N = result m c :=
  (dats m 0 c).arrAt_eq_of_cover 5 (result m c) (fun t _ => flushed_eq m c t) cover

/-- The run, read: every execution ends with the result array at the layer of the arguments as launched, and the
    arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefLayer.lean ====
/-
  The reference's result is the layer.

  The reference joins x and the column of extra features side by side into a 100000 × 257 array h, multiplies h by W
  and adds the bias spread down the rows.  Entry (p, q) of the product is the inner product over all 257 features;
  splitting off the last term, the first 256 features of row p of h are row p of x and the last one is the
  column's entry, so the entry is the split form.
-/
import proofs.«174963_j76192719831671_2_alg».proof.Proof.Gen.ReferenceIdeal.Read
import proofs.«174963_j76192719831671_2_alg».proof.Proof.RankOneLayer
import proofs.«174963_j76192719831671_2_alg».proof.Proof.LibDenseEntry
import Idealize.ShloMosaic.Lib.ValueLayout

noncomputable section

open scoped BigOperators

namespace Cert.ReferenceIdeal.RefValue

open Cert.ReferenceIdeal Cert.ReferenceIdeal.Gen Cert.ReferenceIdeal.Read Idealize.ShloMosaic Idealize.ShloMosaic.ValueIdx

/-- The first 256 entries of a row of the joined array are the row of x. -/
theorem joined_left (x : (⟨S100000x256, .f32⟩ : BufTy).Contents (Elt Ideal)) (a : (⟨S100000x1, .f32⟩ : BufTy).Contents (Elt Ideal))
    (p : Fin 100000) (k : Fin 256) :
    concatenate S100000x257 1 [⟨S100000x256, x⟩, ⟨S100000x1, a⟩] concatenates_S100000x256_S100000x1_S100000x257_d1
        (ix2 p k.castSucc) = x (ix2 p k) :=
  concatenate_pair_apply_left 1 x a _ (ix2 p k.castSucc) rfl (ix2 p k) fun b => by
    match b with
    | ⟨0, _⟩ => rfl
    | ⟨1, _⟩ => rfl

/-- The last entry of a row of the joined array is the column's entry of that row. -/
theorem joined_last (x : (⟨S100000x256, .f32⟩ : BufTy).Contents (Elt Ideal)) (a : (⟨S100000x1, .f32⟩ : BufTy).Contents (Elt Ideal))
    (p : Fin 100000) :
    concatenate S100000x257 1 [⟨S100000x256, x⟩, ⟨S100000x1, a⟩] concatenates_S100000x256_S100000x1_S100000x257_d1
        (ix2 p (Fin.last 256)) = a (ix2 p (0 : Fin 1)) :=
  concatenate_pair_apply_right 1 x a _ (ix2 p (Fin.last 256)) rfl rfl (ix2 p (0 : Fin 1))
    (fun b hb => by
      match b with
      | ⟨0, _⟩ => rfl
      | ⟨1, _⟩ => exact absurd rfl hb)
    rfl

/-- The bias spread down the rows, read at (p, q), is the bias at q. -/
theorem bias_apply (x4 : (⟨S256, .f32⟩ : BufTy).Contents (Elt Ideal)) (p : Fin 100000) (q : Fin 256) :
    val_main_v6 (F := Ideal) x4 (ix2 p q) = x4 (ix1 q) := by
  rw [val_main_v6_apply, val_main_v5_apply]
  exact congrArg x4 (funext fun a => by match a with | ⟨0, _⟩ => rfl)

/-- The product's entry (p, q) is the inner product of row p of the joined array with column q of W. -/
theorem product_apply (x0 : (⟨S100000x256, .f32⟩ : BufTy).Contents (Elt Ideal)) (x1 : (⟨S3200000x1, .f32⟩ : BufTy).Contents (Elt Ideal))
    (x2 : (⟨S3200000, .i32⟩ : BufTy).Contents (Elt Ideal)) (x3 : (⟨S257x256, .f32⟩ : BufTy).Contents (Elt Ideal))
    (p : Fin 100000) (q : Fin 256) :
    val_main_v4 (F := Ideal) x0 x1 x2 x3 (ix2 p q)
      = ∑ k : Fin 257, val_main_v3 (F := Ideal) x0 x1 x2 (ix2 p k) * x3 (ix2 k q) := by
  unfold val_main_v4
  exact LibDenseEntry.dotGeneral_plain_apply dot_S100000x257_S257x256_S100000x256_1_0_0_1_n_n rfl rfl rfl rfl rfl rfl
    none .single _ _ p q

/-- The reference's result is the layer of x, its own column of extra features, W and the bias. -/
theorem result_eq (x0 : (⟨S100000x256, .f32⟩ : BufTy).Contents (Elt Ideal)) (x1 : (⟨S3200000x1, .f32⟩ : BufTy).Contents (Elt Ideal))
    (x2 : (⟨S3200000, .i32⟩ : BufTy).Contents (Elt Ideal)) (x3 : (⟨S257x256, .f32⟩ : BufTy).Contents (Elt Ideal))
    (x4 : (⟨S256, .f32⟩ : BufTy).Contents (Elt Ideal)) :
    val_main_v7 (F := Ideal) x0 x1 x2 x3 x4 = RankOneLayer.layer x0 (val_main_v2 (F := Ideal) x1 x2) x3 x4 := by
  funext i
  obtain ⟨p, q, rfl⟩ : ∃ (p : Fin 100000) (q : Fin 256), i = ix2 p q := ⟨i 0, i 1, eq_ix2 i⟩
  rw [RankOneLayer.layer_apply, val_main_v7_apply, Ideal.addf_def, bias_apply, product_apply]
  refine congrArg (· + x4 (ix1 q)) ?_
  refine (RankOneLayer.inner_split (fun k => val_main_v3 (F := Ideal) x0 x1 x2 (ix2 p k)) (fun k => x3 (ix2 k q))).trans ?_
  exact congrArg₂ (· + ·)
    (Finset.sum_congr rfl fun k _ =>
      congrArg (· * x3 (ix2 k.castSucc q)) (joined_left x0 (val_main_v2 (F := Ideal) x1 x2) p k))
    (congrArg (· * x3 (ix2 (Fin.last 256) q)) (joined_last x0 (val_main_v2 (F := Ideal) x1 x2) p))

end Cert.ReferenceIdeal.RefValue

end
-- ==== Proof.lean ====
/-
  A fused linear layer against its plain form, over the extended reals.

  Both programs first add each edge's feature into the row its destination index names, giving one extra feature
  per row (the same host operation on the same operands in both, so it is never opened here).  The plain form joins
  that column to x as a 257th feature, multiplies by the 257 × 256 matrix W and adds the bias.  The fused form never
  builds the joined array: tile by tile of 4000 rows it multiplies x by the first 256 rows of W, adds the row's
  extra feature times the last row of W, and adds the bias.  Entry by entry the two agree because an inner product
  over 257 features is the inner product over the first 256 plus the last feature's term — a regrouping of a
  finite sum, valid for every extended real, so the finiteness of the inputs is not used.  Changes of float format
  are the identity over the extended reals, and the kernel's product accumulates into zero.

  Each program's frame (it terminates, nothing faults, the arguments end unchanged) is that of its frame module;
  the idealization rewrote no operation, so that conjunct is trivial.
-/
import proofs.«174963_j76192719831671_2_alg».proof.Defs
import proofs.«174963_j76192719831671_2_alg».proof.Proof.Gen.Kernel
import proofs.«174963_j76192719831671_2_alg».proof.Proof.Gen.Kernel.Skeleton
import proofs.«174963_j76192719831671_2_alg».proof.Proof.Gen.Kernel.Launch
import proofs.«174963_j76192719831671_2_alg».proof.Proof.Gen.Kernel.Points
import proofs.«174963_j76192719831671_2_alg».proof.Proof.Gen.Kernel.Frame
import proofs.«174963_j76192719831671_2_alg».proof.Proof.Gen.KernelIdeal
import proofs.«174963_j76192719831671_2_alg».proof.Proof.Gen.KernelIdeal.Skeleton
import proofs.«174963_j76192719831671_2_alg».proof.Proof.Gen.KernelIdeal.Launch
import proofs.«174963_j76192719831671_2_alg».proof.Proof.Gen.KernelIdeal.Points
import proofs.«174963_j76192719831671_2_alg».proof.Proof.Gen.KernelIdeal.Frame
import proofs.«174963_j76192719831671_2_alg».proof.Proof.Gen.ReferenceIdeal
import proofs.«174963_j76192719831671_2_alg».proof.Proof.Gen.Pre_finite_inputs
import proofs.«174963_j76192719831671_2_alg».proof.Proof.Gen.KernelIdeal.Value
import proofs.«174963_j76192719831671_2_alg».proof.Proof.Gen.ReferenceIdeal.Run
import proofs.«174963_j76192719831671_2_alg».proof.Proof.Gen.ReferenceIdeal.Read
import proofs.«174963_j76192719831671_2_alg».proof.Proof.KernelLayer
import proofs.«174963_j76192719831671_2_alg».proof.Proof.RefLayer
import Idealize.ShloMosaic.Adequacy
import Idealize.ShloMosaic.Init

noncomputable section

namespace Cert.Proof

open Idealize.ShloMosaic Idealize.ShloMosaic.TcCoe Idealize.SL.Sem

/-- The column of extra features is one array in both programs: the same scatter-add of the edge features at the
    destination indices into zeros. -/
theorem column_eq (he : (⟨Cert.KernelIdeal.S3200000x1, .f32⟩ : BufTy).Contents (Elt Ideal))
    (dst : (⟨Cert.KernelIdeal.S3200000, .i32⟩ : BufTy).Contents (Elt Ideal)) :
    Cert.ReferenceIdeal.Read.val_main_v2 (F := Ideal) he dst = Cert.KernelIdeal.Entry.agg he dst := rfl

theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at the layer of the arguments:
    the kernel tile by tile, the reference through the joined array. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2.1, (hagree c).2.2.2.1, (hagree c).2.2.2.2, column_eq]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
